-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x50 : Shape := ⟨2, ![4096, 50]⟩
abbrev S2000000x64 : Shape := ⟨2, ![2000000, 64]⟩
abbrev S2000000 : Shape := ⟨1, ![2000000]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S2000000x64 : S_.BroadcastsInDim S2000000x64 (![] : Fin 0 → Fin S2000000x64.rank)
  reducesTo_S2000000x64_S_d0_1 : S2000000x64.ReducesTo [0, 1] S_
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S4096x64 .f32) (main_arg1 : IVec S4096x50 32) (main_arg2 : FVec F S2000000x64 .f32) (main_arg3 : FVec F S2000000 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S2000000x64 .f32 := Host.absf main_arg2
  let main_cst_0 : FVec F S_ .f32 := constant S_ .f32 0x7F800000#32
  let main_v5 : FVec F S2000000x64 .f32 := broadcastInDim S2000000x64 ![] bcast_S_S2000000x64 main_cst_0
  let main_v6 : IVec S2000000x64 1 := cmpf .olt main_v4 main_v5
  let main_c_1 : IVec S_ 1 := constantI S_ 1 1#1
  let main_v7 : IVec S_ 1 := (fun x v => Host.reduce IntOp.andi x v reducesTo_S2000000x64_S_d0_1 h_S_) main_v6 main_c_1
  let main_v8 : IVec S_ 1 := andi main_v3 main_v7
  let main_v9 : FVec F S2000000 .f32 := Host.absf main_arg3
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  main_v13
-- ==== Kernel.lean ====
abbrev S4096x64 : Shape := ⟨2, ![4096, 64]⟩
abbrev S4096x50 : Shape := ⟨2, ![4096, 50]⟩
abbrev S2000000x64 : Shape := ⟨2, ![2000000, 64]⟩
abbrev S2000000 : Shape := ⟨1, ![2000000]⟩
abbrev S_ : Shape := ⟨0, ![]⟩
abbrev S4096x50x1 : Shape := ⟨3, ![4096, 50, 1]⟩
abbrev S4096x50x64 : Shape := ⟨3, ![4096, 50, 64]⟩
abbrev S4096x1 : Shape := ⟨2, ![4096, 1]⟩
abbrev S512x64 : Shape := ⟨2, ![512, 64]⟩
abbrev S512x50x64 : Shape := ⟨3, ![512, 50, 64]⟩
abbrev S512x50 : Shape := ⟨2, ![512, 50]⟩
abbrev S512x1 : Shape := ⟨2, ![512, 1]⟩
abbrev S512x1x64 : Shape := ⟨3, ![512, 1, 64]⟩
abbrev S512 : Shape := ⟨1, ![512]⟩
abbrev S4096 : Shape := ⟨1, ![4096]⟩

abbrev nBuf : Space → Nat
  | .hbm => 24
  | .vmem => 8
  | .smem => 0
  | _ => 0

abbrev bufTy : (tb : Table) → Fin (tcTables nBuf tb) → BufTy
  | .hbm, ⟨0, _⟩ => ⟨S4096x64, .f32⟩
  | .hbm, ⟨1, _⟩ => ⟨S4096x50, .i32⟩
  | .hbm, ⟨2, _⟩ => ⟨S2000000x64, .f32⟩
  | .hbm, ⟨3, _⟩ => ⟨S2000000, .f32⟩
  | .hbm, ⟨4, _⟩ => ⟨S_, .i32⟩
  | .hbm, ⟨5, _⟩ => ⟨S4096x50, .i32⟩
  | .hbm, ⟨6, _⟩ => ⟨S4096x50, .i1⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S4096x50, .i32⟩
  | .hbm, ⟨11, _⟩ => ⟨S4096x50x1, .i32⟩
  | .hbm, ⟨12, _⟩ => ⟨S4096x50x64, .f32⟩
  | .hbm, ⟨13, _⟩ => ⟨S_, .i32⟩
  | .hbm, ⟨14, _⟩ => ⟨S4096x50, .i32⟩
  | .hbm, ⟨15, _⟩ => ⟨S4096x50, .i1⟩
  | .hbm, ⟨16, _⟩ => ⟨S_, .i32⟩
  | .hbm, ⟨17, _⟩ => ⟨S4096x50, .i32⟩
  | .hbm, ⟨18, _⟩ => ⟨S4096x50, .i32⟩
  | .hbm, ⟨19, _⟩ => ⟨S4096x50, .i32⟩
  | .hbm, ⟨20, _⟩ => ⟨S4096x50x1, .i32⟩
  | .hbm, ⟨21, _⟩ => ⟨S4096x50, .f32⟩
  | .hbm, ⟨22, _⟩ => ⟨S4096x1, .f32⟩
  | .hbm, ⟨23, _⟩ => ⟨S4096, .f32⟩
  | .local _ .vmem, ⟨0, _⟩ => ⟨S512x64, .f32⟩
  | .local _ .vmem, ⟨1, _⟩ => ⟨S512x64, .f32⟩
  | .local _ .vmem, ⟨2, _⟩ => ⟨S512x50x64, .f32⟩
  | .local _ .vmem, ⟨3, _⟩ => ⟨S512x50x64, .f32⟩
  | .local _ .vmem, ⟨4, _⟩ => ⟨S512x50, .f32⟩
  | .local _ .vmem, ⟨5, _⟩ => ⟨S512x50, .f32⟩
  | .local _ .vmem, ⟨6, _⟩ => ⟨S512x1, .f32⟩
  | .local _ .vmem, ⟨7, _⟩ => ⟨S512x1, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x50x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  inb_S512x64_S512x64_0_0 : ∀ a, (![0, 0] : Fin 2 → Nat) a + S512x64.size a ≤ S512x64.size a
  h_S512x64 : 0 < S512x64.numel
  inb_S512x50x64_S512x50x64_0_0_0 : ∀ a, (![0, 0, 0] : Fin 3 → Nat) a + S512x50x64.size a ≤ S512x50x64.size a
  h_S512x50x64 : 0 < S512x50x64.numel
  shapeCasts_S512x50x64_S512x50x64 : S512x50x64.ShapeCasts S512x50x64
  inb_S512x50_S512x50_0_0 : ∀ a, (![0, 0] : Fin 2 → Nat) a + S512x50.size a ≤ S512x50.size a
  h_S512x50 : 0 < S512x50.numel
  shapeCasts_S512x50_S512x50 : S512x50.ShapeCasts S512x50
  shapeCasts_S512x64_S512x1x64 : S512x64.ShapeCasts S512x1x64
  broadcasts_S512x1x64_S512x50x64 : S512x1x64.Broadcasts S512x50x64
  reduces_S512x50x64_S512x50 : S512x50x64.Reduces [2] S512x50
  reduces_S512x50_S512 : S512x50.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S4096x1_S4096 : S4096x1.ShapeCasts S4096
  gather_S2000000x64_S4096x50x1_S4096x50x64_2_0_n_n_0_2_164_wf : GatherDims.WF S2000000x64 S4096x50x1 S4096x50x64 [2] [0] [] [0] [] 2 ![1, 64]
  gather_S2000000_S4096x50x1_S4096x50_n_0_n_n_0_2_1_wf : GatherDims.WF S2000000 S4096x50x1 S4096x50 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S4096x64.size a
  hwx0_0 : ∀ i : grid0.Coords, EltTy.bits .f32 = 32 ∨ (Rect.block (s := S4096x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x50x64.size a ≤ S4096x50x64.size a
  hwx0_1 : ∀ i : grid0.Coords, EltTy.bits .f32 = 32 ∨ (Rect.block (s := S4096x50x64) S512x50x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x50.size a ≤ S4096x50.size a
  hwx0_2 : ∀ i : grid0.Coords, EltTy.bits .f32 = 32 ∨ (Rect.block (s := S4096x50) S512x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

def gather_S2000000x64_S4096x50x1_S4096x50x64_2_0_n_n_0_2_164 : GatherDims S2000000x64 S4096x50x1 S4096x50x64 where
  offsetDims := [2]
  collapsedSliceDims := [0]
  operandBatchingDims := []
  startIndicesBatchingDims := []
  startIndexMap := [0]
  indexVectorDim := 2
  sliceSizes := ![1, 64]
  wf := gather_S2000000x64_S4096x50x1_S4096x50x64_2_0_n_n_0_2_164_wf
def gather_S2000000_S4096x50x1_S4096x50_n_0_n_n_0_2_1 : GatherDims S2000000 S4096x50x1 S4096x50 where
  offsetDims := []
  collapsedSliceDims := [0]
  operandBatchingDims := []
  startIndicesBatchingDims := []
  startIndexMap := [0]
  indexVectorDim := 2
  sliceSizes := ![1]
  wf := gather_S2000000_S4096x50x1_S4096x50_n_0_n_n_0_2_1_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x50x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x50 : Shape := ⟨2, ![4096, 50]⟩
abbrev S2000000x64 : Shape := ⟨2, ![2000000, 64]⟩
abbrev S2000000 : Shape := ⟨1, ![2000000]⟩
abbrev S_ : Shape := ⟨0, ![]⟩
abbrev S4096x50x1 : Shape := ⟨3, ![4096, 50, 1]⟩
abbrev S4096x50x64 : Shape := ⟨3, ![4096, 50, 64]⟩
abbrev S4096x1x64 : Shape := ⟨3, ![4096, 1, 64]⟩
abbrev S4096 : Shape := ⟨1, ![4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x50, .i32⟩
  | .hbm, ⟨2, _⟩ => ⟨S2000000x64, .f32⟩
  | .hbm, ⟨3, _⟩ => ⟨S2000000, .f32⟩
  | .hbm, ⟨4, _⟩ => ⟨S_, .i32⟩
  | .hbm, ⟨5, _⟩ => ⟨S4096x50, .i32⟩
  | .hbm, ⟨6, _⟩ => ⟨S4096x50, .i1⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S4096x50, .i32⟩
  | .hbm, ⟨11, _⟩ => ⟨S4096x50x1, .i32⟩
  | .hbm, ⟨12, _⟩ => ⟨S4096x50x64, .f32⟩
  | .hbm, ⟨13, _⟩ => ⟨S_, .i32⟩
  | .hbm, ⟨14, _⟩ => ⟨S4096x50, .i32⟩
  | .hbm, ⟨15, _⟩ => ⟨S4096x50, .i1⟩
  | .hbm, ⟨16, _⟩ => ⟨S_, .i32⟩
  | .hbm, ⟨17, _⟩ => ⟨S4096x50, .i32⟩
  | .hbm, ⟨18, _⟩ => ⟨S4096x50, .i32⟩
  | .hbm, ⟨19, _⟩ => ⟨S4096x50, .i32⟩
  | .hbm, ⟨20, _⟩ => ⟨S4096x50x1, .i32⟩
  | .hbm, ⟨21, _⟩ => ⟨S4096x50, .f32⟩
  | .hbm, ⟨22, _⟩ => ⟨S4096x1x64, .f32⟩
  | .hbm, ⟨23, _⟩ => ⟨S4096x50x64, .f32⟩
  | .hbm, ⟨24, _⟩ => ⟨S4096x50x64, .f32⟩
  | .hbm, ⟨25, _⟩ => ⟨S4096x50x64, .f32⟩
  | .hbm, ⟨26, _⟩ => ⟨S_, .f32⟩
  | .hbm, ⟨27, _⟩ => ⟨S4096x50, .f32⟩
  | .hbm, ⟨28, _⟩ => ⟨S_, .f32⟩
  | .hbm, ⟨29, _⟩ => ⟨S4096x50, .f32⟩
  | .hbm, ⟨30, _⟩ => ⟨S4096x50, .f32⟩
  | .hbm, ⟨31, _⟩ => ⟨S_, .f32⟩
  | .hbm, ⟨32, _⟩ => ⟨S4096x50, .f32⟩
  | .hbm, ⟨33, _⟩ => ⟨S4096x50, .f32⟩
  | .hbm, ⟨34, _⟩ => ⟨S_, .f32⟩
  | .hbm, ⟨35, _⟩ => ⟨S4096, .f32⟩
  | .hbm, ⟨36, _⟩ => ⟨S4096x50, .f32⟩
  | .hbm, ⟨37, _⟩ => ⟨S_, .f32⟩
  | .hbm, ⟨38, _⟩ => ⟨S4096, .f32⟩
  | .hbm, ⟨39, _⟩ => ⟨S4096, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S4096x64_S4096x1x64_0_2 : S4096x64.BroadcastsInDim S4096x1x64 (![0, 2] : Fin 2 → Fin S4096x1x64.rank)
  bcast_S4096x1x64_S4096x50x64_0_1_2 : S4096x1x64.BroadcastsInDim S4096x50x64 (![0, 1, 2] : Fin 3 → Fin S4096x50x64.rank)
  reducesTo_S4096x50x64_S4096x50_d2 : S4096x50x64.ReducesTo [2] S4096x50
  h_S_ : 0 < S_.numel
  reducesTo_S4096x50_S4096_d1 : S4096x50.ReducesTo [1] S4096
  gather_S2000000x64_S4096x50x1_S4096x50x64_2_0_n_n_0_2_164_wf : GatherDims.WF S2000000x64 S4096x50x1 S4096x50x64 [2] [0] [] [0] [] 2 ![1, 64]
  gather_S2000000_S4096x50x1_S4096x50_n_0_n_n_0_2_1_wf : GatherDims.WF S2000000 S4096x50x1 S4096x50 [] [0] [] [0] [] 2 ![1]

variable [Facts₀]

def gather_S2000000x64_S4096x50x1_S4096x50x64_2_0_n_n_0_2_164 : GatherDims S2000000x64 S4096x50x1 S4096x50x64 where
  offsetDims := [2]
  collapsedSliceDims := [0]
  operandBatchingDims := []
  startIndicesBatchingDims := []
  startIndexMap := [0]
  indexVectorDim := 2
  sliceSizes := ![1, 64]
  wf := gather_S2000000x64_S4096x50x1_S4096x50x64_2_0_n_n_0_2_164_wf
def gather_S2000000_S4096x50x1_S4096x50_n_0_n_n_0_2_1 : GatherDims S2000000 S4096x50x1 S4096x50 where
  offsetDims := []
  collapsedSliceDims := [0]
  operandBatchingDims := []
  startIndicesBatchingDims := []
  startIndexMap := [0]
  indexVectorDim := 2
  sliceSizes := ![1]
  wf := gather_S2000000_S4096x50x1_S4096x50_n_0_n_n_0_2_1_wf

class Facts : Prop extends Facts₀ where

variable [Facts]
-- ==== Proof.RowEstimate.lean ====
/-
  One query's estimate, as a function of that query's row alone.

  A query `q` (64 coordinates) comes with 50 retrieved neighbours: their keys `nk k` (64 coordinates each) and
  their values `nv k`.  Neighbour `k` is weighted by the inverse of its squared distance to the query, softened
  by a small positive constant `δ`:

      w k = 1 / (Σ_d (q d - nk k d)² + δ),

  and the estimate is the weighted mean of the neighbours' values,

      (Σ_k w k · nv k) / (Σ_k w k).

  Everything is read on the extended reals with the exact operations (`Ideal.div` is the quotient with its
  conventions at zero and at the infinities); `1` and `δ` are kept as the binary words the two programs share,
  so neither is ever evaluated.  Nothing here depends on how many queries there are: a batch is estimated row by
  row, which is why a block of rows and the whole batch are one statement.
-/
import Idealize.ShloMosaic.PureOps.Ideal
import Idealize.ShloMosaic.PureOps.Ideal.Laws
import Idealize.ShloMosaic.Lib.ValueIdx

noncomputable section

namespace Cert.Knn

open Idealize.ShloMosaic Idealize.ShloMosaic.ValueIdx

/-- The word of `1.0` and of the softening constant `δ = f32(0.001)`, as both programs spell them. -/
abbrev oneW : EReal := Ideal.ofBits .f32 0x3F800000#32
abbrev deltaW : EReal := Ideal.ofBits .f32 0x3A83126F#32

/-- Squared distance between a query and one neighbour key. -/
def sqDist (q nk : Fin 64 → EReal) : EReal := ∑ d : Fin 64, (q d - nk d) * (q d - nk d)

/-- The inverse-distance weight of one neighbour. -/
def weight (q nk : Fin 64 → EReal) : EReal := Ideal.div oneW (sqDist q nk + deltaW)

/-- The weighted mean of the neighbours' values. -/
def rowEstimate (q : Fin 64 → EReal) (nk : Fin 50 → Fin 64 → EReal) (nv : Fin 50 → EReal) : EReal :=
  Ideal.div (∑ k : Fin 50, weight q (nk k) * nv k) (∑ k : Fin 50, weight q (nk k))

/-- Row `b` of an `[n, 64]` array of queries, of an `[n, 50, 64]` array of neighbour keys, of an `[n, 50]` array of
    neighbour values. -/
abbrev qRow {n : ℕ} (x : (⟨2, ![n, 64]⟩ : Shape).Idx → EReal) (b : Fin n) : Fin 64 → EReal := fun d => x (ix2 b d)
abbrev kRow {n : ℕ} (x : (⟨3, ![n, 50, 64]⟩ : Shape).Idx → EReal) (b : Fin n) : Fin 50 → Fin 64 → EReal := fun k d => x (ix3 b k d)
abbrev vRow {n : ℕ} (x : (⟨2, ![n, 50]⟩ : Shape).Idx → EReal) (b : Fin n) : Fin 50 → EReal := fun k => x (ix2 b k)

/-- The whole batch: 4096 queries, each estimated from its own row. -/
def batchEstimate (q : (⟨2, ![4096, 64]⟩ : Shape).Idx → EReal) (nk : (⟨3, ![4096, 50, 64]⟩ : Shape).Idx → EReal)
    (nv : (⟨2, ![4096, 50]⟩ : Shape).Idx → EReal) : (⟨1, ![4096]⟩ : Shape).Idx → EReal :=
  fun i => rowEstimate (qRow q (i 0)) (kRow nk (i 0)) (vRow nv (i 0))

end Cert.Knn

end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.Payload.lean ====
/-
  What the kernel's body computes, read at one row of a block.

  The body loads a block of 512 queries `x0` ([512, 64]), their neighbours' keys `x1` ([512, 50, 64]) and values `x2`
  ([512, 50]).  Each query row is repeated along a new neighbour axis and the keys are subtracted; the squares are
  summed over the 64 coordinates; the softening constant is added and the reciprocal taken: that is the [512, 50]
  array of weights.  The weights, and the weights times the values, are each summed over the 50 neighbours, the two
  sums are viewed as columns [512, 1] and divided.  Read at row `r` of the column, every step reads only row `r` of
  its operands, so the entry is the row estimate of query `r` of the block.
-/
import proofs.«104336_j16527034155821_1_alg».proof.Proof.Gen.KernelIdeal.Skeleton
import proofs.«104336_j16527034155821_1_alg».proof.Proof.RowEstimate
import proofs.«104336_j16527034155821_1_alg».proof.Proof.LibKeepdims
import Idealize.ShloMosaic.Lib.Pipeline.Value
import Idealize.ShloMosaic.Lib.ValueIdx
import Idealize.ShloMosaic.PureOps.Ideal.Laws

noncomputable section

namespace Cert.Knn.Body

open Cert.KernelIdeal Cert.KernelIdeal.Gen Idealize.ShloMosaic Idealize.ShloMosaic.ValueIdx

/-- A query row repeated along the neighbour axis, less the neighbour's key: at (r, k, d) it is
    `x0 (r, d) - x1 (r, k, d)`. -/
theorem diff_apply (x0 : FVec Ideal S512x64 .f32) (x1 : FVec Ideal S512x50x64 .f32)
    (h1 : S512x64.ShapeCasts S512x1x64) (h2 : S512x1x64.Broadcasts S512x50x64) (h3 : S512x50x64.ShapeCasts S512x50x64)
    (r : Fin 512) (k : Fin 50) (d : Fin 64) :
    subf (broadcastTo S512x50x64 (shapeCast S512x1x64 x0 h1) h2) (shapeCast S512x50x64 x1 h3) (ix3 r k d)
      = x0 (ix2 r d) - x1 (ix3 r k d) := by
  rw [shapeCast_self]
  show broadcastTo S512x50x64 (shapeCast S512x1x64 x0 h1) h2 (ix3 r k d) - x1 (ix3 r k d) = _
  rw [broadcastTo_apply (shapeCast S512x1x64 x0 h1) h2 (ix3 r k d) (ix3 r (0 : Fin 1) d) (fun a => by
        match a with
        | ⟨0, _⟩ => show r.val = if (512 : Nat) = 1 then 0 else r.val; rw [if_neg (by decide)]
        | ⟨1, _⟩ => show 0 = if (1 : Nat) = 1 then 0 else k.val; rw [if_pos rfl]
        | ⟨2, _⟩ => show d.val = if (64 : Nat) = 1 then 0 else d.val; rw [if_neg (by decide)]),
    shapeCast_apply x0 h1 (ix3 r (0 : Fin 1) d) (ix2 r d) (by
        rw [Shape.rowMajor_val_two, Shape.rowMajor_val_three]
        show r.val * 64 + d.val = (r.val * 1 + 0) * 64 + d.val
        omega)]

/-- The sum over the coordinate axis of a [512, 50, 64] array, at (r, k). -/
theorem sumCoords_apply (v : FVec Ideal S512x50x64 .f32) (h : S512x50x64.Reduces [2] S512x50) (hφ : FKind.Formats .f32)
    (hacc : (0x00000000#32 : BitVec 32) = FKind.add.neutral .f32 hφ) (r : Fin 512) (k : Fin 50) :
    multiReduction .add [2] S512x50 v 0x00000000#32 h hφ hacc (ix2 r k) = ∑ d : Fin 64, v (ix3 r k d) :=
  (Ideal.multiReduction_add_single v 0x00000000#32 h hφ hacc (ix2 r k)).trans
    (Finset.sum_congr rfl fun d _ => congrArg v (funext fun a => Fin.ext (by
      match a with | ⟨0, _⟩ => rfl | ⟨1, _⟩ => rfl | ⟨2, _⟩ => rfl)))

/-- The sum over the neighbour axis of a [512, 50] array, at r. -/
theorem sumNbrs_apply (v : FVec Ideal S512x50 .f32) (h : S512x50.Reduces [1] S512) (hφ : FKind.Formats .f32)
    (hacc : (0x00000000#32 : BitVec 32) = FKind.add.neutral .f32 hφ) (r : Fin 512) :
    multiReduction .add [1] S512 v 0x00000000#32 h hφ hacc (ix1 r) = ∑ k : Fin 50, v (ix2 r k) :=
  (Ideal.multiReduction_add_single v 0x00000000#32 h hφ hacc (ix1 r)).trans
    (Finset.sum_congr rfl fun k _ => congrArg v (funext fun a => Fin.ext (by
      match a with | ⟨0, _⟩ => rfl | ⟨1, _⟩ => rfl)))

/-- The body's array of weights, at (r, k): the weight of neighbour `k` of query `r`. -/
theorem weights_apply (x0 : FVec Ideal S512x64 .f32) (x1 : FVec Ideal S512x50x64 .f32)
    (h1 : S512x64.ShapeCasts S512x1x64) (h2 : S512x1x64.Broadcasts S512x50x64) (h3 : S512x50x64.ShapeCasts S512x50x64)
    (hr : S512x50x64.Reduces [2] S512x50) (hφ : FKind.Formats .f32)
    (hacc : (0x00000000#32 : BitVec 32) = FKind.add.neutral .f32 hφ) (r : Fin 512) (k : Fin 50) :
    divf (broadcast S512x50 (Scalar.ofBits (F := Ideal) .f32 0x3F800000#32))
        (addf (multiReduction .add [2] S512x50
            (mulf (subf (broadcastTo S512x50x64 (shapeCast S512x1x64 x0 h1) h2) (shapeCast S512x50x64 x1 h3))
              (subf (broadcastTo S512x50x64 (shapeCast S512x1x64 x0 h1) h2) (shapeCast S512x50x64 x1 h3)))
            0x00000000#32 hr hφ hacc)
          (broadcast S512x50 (Scalar.ofBits (F := Ideal) .f32 0x3A83126F#32))) (ix2 r k)
      = Cert.Knn.weight (Cert.Knn.qRow x0 r) (Cert.Knn.kRow x1 r k) := by
  show Ideal.div Cert.Knn.oneW (multiReduction (F := Ideal) (φ := .f32) .add [2] S512x50 _ 0x00000000#32 hr hφ hacc (ix2 r k) + Cert.Knn.deltaW) = _
  rw [sumCoords_apply]
  unfold Cert.Knn.weight Cert.Knn.sqDist
  refine congrArg (fun s => Ideal.div Cert.Knn.oneW (s + Cert.Knn.deltaW)) (Finset.sum_congr rfl fun d _ => ?_)
  show subf (F := Ideal) (φ := .f32) _ _ (ix3 r k d) * subf (F := Ideal) (φ := .f32) _ _ (ix3 r k d) = _
  rw [diff_apply]

/-- The body's stored column, at (r, ·): the row estimate of query `r` of the block. -/
theorem column_apply (x0 : FVec Ideal S512x64 .f32) (x1 : FVec Ideal S512x50x64 .f32) (x2 : FVec Ideal S512x50 .f32)
    (h1 : S512x64.ShapeCasts S512x1x64) (h2 : S512x1x64.Broadcasts S512x50x64) (h3 : S512x50x64.ShapeCasts S512x50x64)
    (h4 : S512x50.ShapeCasts S512x50) (hr : S512x50x64.Reduces [2] S512x50) (hn : S512x50.Reduces [1] S512)
    (hc : S512.ShapeCasts S512x1) (hφ : FKind.Formats .f32)
    (hacc : (0x00000000#32 : BitVec 32) = FKind.add.neutral .f32 hφ) (r : Fin 512) (u : Fin 1) :
    divf
        (shapeCast S512x1 (multiReduction .add [1] S512
          (mulf (divf (broadcast S512x50 (Scalar.ofBits (F := Ideal) .f32 0x3F800000#32))
              (addf (multiReduction .add [2] S512x50
                  (mulf (subf (broadcastTo S512x50x64 (shapeCast S512x1x64 x0 h1) h2) (shapeCast S512x50x64 x1 h3))
                    (subf (broadcastTo S512x50x64 (shapeCast S512x1x64 x0 h1) h2) (shapeCast S512x50x64 x1 h3)))
                  0x00000000#32 hr hφ hacc)
                (broadcast S512x50 (Scalar.ofBits (F := Ideal) .f32 0x3A83126F#32))))
            (shapeCast S512x50 x2 h4)) 0x00000000#32 hn hφ hacc) hc)
        (shapeCast S512x1 (multiReduction .add [1] S512
          (divf (broadcast S512x50 (Scalar.ofBits (F := Ideal) .f32 0x3F800000#32))
              (addf (multiReduction .add [2] S512x50
                  (mulf (subf (broadcastTo S512x50x64 (shapeCast S512x1x64 x0 h1) h2) (shapeCast S512x50x64 x1 h3))
                    (subf (broadcastTo S512x50x64 (shapeCast S512x1x64 x0 h1) h2) (shapeCast S512x50x64 x1 h3)))
                  0x00000000#32 hr hφ hacc)
                (broadcast S512x50 (Scalar.ofBits (F := Ideal) .f32 0x3A83126F#32)))) 0x00000000#32 hn hφ hacc) hc)
        (ix2 r u)
      = Cert.Knn.rowEstimate (Cert.Knn.qRow x0 r) (Cert.Knn.kRow x1 r) (Cert.Knn.vRow x2 r) := by
  show Ideal.div (shapeCast (α := EReal) S512x1 _ hc (ix2 r u)) (shapeCast (α := EReal) S512x1 _ hc (ix2 r u)) = _
  rw [Cert.LibKeepdims.shapeCast_a_a1_apply, Cert.LibKeepdims.shapeCast_a_a1_apply, sumNbrs_apply, sumNbrs_apply]
  unfold Cert.Knn.rowEstimate
  refine congrArg₂ Ideal.div (Finset.sum_congr rfl fun k _ => ?_) (Finset.sum_congr rfl fun k _ => ?_)
  · show divf (F := Ideal) (φ := .f32) _ _ (ix2 r k) * shapeCast S512x50 x2 h4 (ix2 r k) = _
    rw [weights_apply, shapeCast_self]
  · exact weights_apply x0 x1 h1 h2 h3 hr hφ hacc r k

/-- The body's payload at (r, ·) is the row estimate of query `r` of the loaded blocks. -/
theorem payload_apply (x0 : Vec Ideal S512x64 .f32) (x1 : Vec Ideal S512x50x64 .f32) (x2 : Vec Ideal S512x50 .f32)
    (r : Fin 512) (u : Fin 1) :
    k0_pay1 (F := Ideal) x0 x1 x2 (ix2 r u)
      = Cert.Knn.rowEstimate (Cert.Knn.qRow x0 r) (Cert.Knn.kRow x1 r) (Cert.Knn.vRow x2 r) := by
  unfold k0_pay1
  exact column_apply x0 x1 x2 _ _ _ _ _ _ _ _ _ r u

end Cert.Knn.Body

end
-- ==== Proof.RegionColumn.lean ====
/-
  The column the region writes.

  The region runs the body at 8 grid points; point `t` works on rows `512 t … 512 t + 511`: it is handed block `t` of
  the query array, of the gathered neighbour keys and of the gathered neighbour values, and writes block `t` of the
  [4096, 1] result column.  Row `r` of a block is row `512 t + r` of its array (the other block coordinates are 0), and
  the body's entry at row `r` is the row estimate of that row of its three blocks: so what point `t` writes back is
  block `t` of ONE column, the one whose entry at row `b` is the row estimate of row `b` of the three arrays as the
  region finds them.  The 8 blocks cover the 4096 rows (row `b` lies in block `b / 512`), so after the run the
  result column is that column.
-/
import proofs.«104336_j16527034155821_1_alg».proof.Proof.Gen.KernelIdeal.Frame
import proofs.«104336_j16527034155821_1_alg».proof.Proof.Payload
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Knn.Region

open Cert.KernelIdeal Cert.KernelIdeal.Gen

variable (m : (ℓ : Loc nD τ sig) → Buf (Elt Ideal) ℓ)

/-- The three arrays the region stages, as it finds them: the queries (an argument), the gathered neighbour keys and
    the gathered neighbour values (written by the host stages before the region). -/
def queries (c : Dev nD) : S4096x64.Idx → EReal := V m c main_arg0
def nbrKeys (c : Dev nD) : S4096x50x64.Idx → EReal := V m c main_v6
def nbrVals (c : Dev nD) : S4096x50.Idx → EReal := V m c main_v13

/-- The column: at row `b` the row estimate of row `b` of the three arrays. -/
def column (c : Dev nD) : S4096x1.Idx → EReal := fun i =>
  Cert.Knn.rowEstimate (Cert.Knn.qRow (queries m c) (i 0)) (Cert.Knn.kRow (nbrKeys m c) (i 0)) (Cert.Knn.vRow (nbrVals m c) (i 0))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 8 points: every window is on the output's row block, at block 0 on its
    other axes. -/
theorem idx_facts : ∀ t : Fin cfg0.N,
    win0_0.index t (0 : Fin 2) = win0_3.index t (0 : Fin 2) ∧ win0_0.index t (1 : Fin 2) = 0
    ∧ win0_1.index t (0 : Fin 3) = win0_3.index t (0 : Fin 2) ∧ win0_1.index t (1 : Fin 3) = 0 ∧ win0_1.index t (2 : Fin 3) = 0
    ∧ win0_2.index t (0 : Fin 2) = win0_3.index t (0 : Fin 2) ∧ win0_2.index t (1 : Fin 2) = 0
    ∧ win0_3.index t (1 : Fin 2) = 0 ∧ win0_3.index t (0 : Fin 2) ≤ 7 :=
  (by decide +kernel : ∀ t : Fin grid0.N, _)

/-- Every row block is some point's. -/
theorem idx_onto : ∀ q : Fin 8, ∃ t : Fin cfg0.N, win0_3.index t = ![q.val, 0] :=
  (by decide +kernel : ∀ q : Fin 8, ∃ t : Fin grid0.N, win0_3.index t = ![q.val, 0])

/-- Row `r` of the query block at point `t` is row `b` of the query array, `b` the block's row offset plus `r`. -/
theorem queries_block (c : Dev nD) (t : Fin cfg0.N) (r : Fin 512) (d : Fin 64) (b : Fin 4096)
    (hb : b.val = win0_0.index t (0 : Fin 2) * 512 + r.val) (h1 : win0_0.index t (1 : Fin 2) = 0) :
    (iblk m c 0 t : Vec Ideal S512x64 .f32) (ix2 r d) = queries m c (ix2 b d) := by
  unfold iblk queries
  rw [View.read_apply]
  show V m c main_arg0 _ = V m c main_arg0 _
  refine congrArg (V m c main_arg0) (funext fun a => Fin.ext ?_)
  match a with
  | ⟨0, _⟩ => show win0_0.index t (0 : Fin 2) * 512 + 1 * r.val = b.val; omega
  | ⟨1, _⟩ => show win0_0.index t (1 : Fin 2) * 64 + 1 * d.val = d.val; omega

theorem nbrKeys_block (c : Dev nD) (t : Fin cfg0.N) (r : Fin 512) (k : Fin 50) (d : Fin 64) (b : Fin 4096)
    (hb : b.val = win0_1.index t (0 : Fin 3) * 512 + r.val) (h1 : win0_1.index t (1 : Fin 3) = 0) (h2 : win0_1.index t (2 : Fin 3) = 0) :
    (iblk m c 1 t : Vec Ideal S512x50x64 .f32) (ix3 r k d) = nbrKeys m c (ix3 b k d) := by
  unfold iblk nbrKeys
  rw [View.read_apply]
  show V m c main_v6 _ = V m c main_v6 _
  refine congrArg (V m c main_v6) (funext fun a => Fin.ext ?_)
  match a with
  | ⟨0, _⟩ => show win0_1.index t (0 : Fin 3) * 512 + 1 * r.val = b.val; omega
  | ⟨1, _⟩ => show win0_1.index t (1 : Fin 3) * 50 + 1 * k.val = k.val; omega
  | ⟨2, _⟩ => show win0_1.index t (2 : Fin 3) * 64 + 1 * d.val = d.val; omega

theorem nbrVals_block (c : Dev nD) (t : Fin cfg0.N) (r : Fin 512) (k : Fin 50) (b : Fin 4096)
    (hb : b.val = win0_2.index t (0 : Fin 2) * 512 + r.val) (h1 : win0_2.index t (1 : Fin 2) = 0) :
    (iblk m c 2 t : Vec Ideal S512x50 .f32) (ix2 r k) = nbrVals m c (ix2 b k) := by
  unfold iblk nbrVals
  rw [View.read_apply]
  show V m c main_v13 _ = V m c main_v13 _
  refine congrArg (V m c main_v13) (funext fun a => Fin.ext ?_)
  match a with
  | ⟨0, _⟩ => show win0_2.index t (0 : Fin 2) * 512 + 1 * r.val = b.val; omega
  | ⟨1, _⟩ => show win0_2.index t (1 : Fin 2) * 50 + 1 * k.val = k.val; omega

/-- What point `t` writes back is block `t` of the column. -/
theorem flushed_eq (c : Dev nD) (t : Fin cfg0.N) :
    (dats m 0 c).flushed 3 t = ((cfg0.win 3).blk t).view.read (Elt Ideal) (column m c) := by
  show (cfg0.win 3).cut (grid0.coords t) ((dats m 0 c).after 3 t) = _
  rw [after0_3]
  unfold out0_3
  rw [View.canon_unit_zero hz2]
  simp only [View.ld_unit_zero (S := S512x64) hz2, View.ld_unit_zero (S := S512x50x64) hz3, View.ld_unit_zero (S := S512x50) hz2]
  obtain ⟨e00, e01, e10, e11, e12, e20, e21, e31, e3⟩ := idx_facts t
  funext j
  obtain ⟨r, u, rfl⟩ : ∃ (r : Fin 512) (u : Fin 1), j = ix2 r u := ⟨j 0, j 1, eq_ix2 j⟩
  refine (Cert.Knn.Body.payload_apply _ _ _ r u).trans ?_
  have hrow : ((((cfg0.win 3).blk t).view.emb (ix2 r u)) 0).val = win0_3.index t (0 : Fin 2) * 512 + 1 * r.val := rfl
  show _ = Cert.Knn.rowEstimate (Cert.Knn.qRow (queries m c) ((((cfg0.win 3).blk t).view.emb (ix2 r u)) 0))
    (Cert.Knn.kRow (nbrKeys m c) ((((cfg0.win 3).blk t).view.emb (ix2 r u)) 0))
    (Cert.Knn.vRow (nbrVals m c) ((((cfg0.win 3).blk t).view.emb (ix2 r u)) 0))
  refine congr (congr (congrArg Cert.Knn.rowEstimate ?_) ?_) ?_
  · funext d
    exact queries_block m c t r d _ (by rw [hrow]; omega) e01
  · funext k d
    exact nbrKeys_block m c t r k d _ (by rw [hrow]; omega) e11 e12
  · funext k
    exact nbrVals_block m c t r k _ (by rw [hrow]; omega) e21

/-- A row of the column is in point `t`'s block iff each coordinate is in the block's range on its axis. -/
theorem mem_blk (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v14).slice (win0_3.rect t)).set ↔ _
  rw [View.set_slice_whole, Rect.mem_set_unit]
  exact Iff.rfl

/-- Every row is in the block of the point whose row block is `b / 512`. -/
theorem covered (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1 ≤ (i 1).val ∧ (i 1).val < win0_3.index t (1 : Fin 2) * 1 + 1; omega

/-- The result column after the run. -/
theorem final (c : Dev nD) : (dats m 0 c).arrAt 3 cfg0.N = column m c :=
  (dats m 0 c).arrAt_eq_of_cover 3 (column m c) (fun t _ => flushed_eq m c t) covered

end Cert.Knn.Region

end
-- ==== Proof.KernelRun.lean ====
/-
  The kernel's program, end to end.

  Before the region the host stages normalise the indices (a negative index counts from the end of the table) and
  gather, from the two tables, the neighbours' keys and values; the region stages the queries and those two gathered
  arrays and writes the [4096, 1] column of row estimates; after the region the host views the column as a vector
  [4096].  Entry `b` of the vector is entry (b, 0) of the column, so the program's result is the batch estimate of the
  queries and the two gathered arrays, and its arguments end as launched.
-/
import proofs.«104336_j16527034155821_1_alg».proof.Proof.RegionColumn
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Knn.Kernel

open Cert.KernelIdeal Cert.KernelIdeal.Gen Cert.Knn.Region

variable (m : (ℓ : Loc nD τ sig) → Buf (Elt Ideal) ℓ) (ρ : Dev nD → PrngReg)

/-- The normalised indices, as the gathers take them: an index below zero has the table's length added, and the
    [4096, 50] array is given a trailing unit axis. -/
def normIndices (x1 : (⟨S4096x50, .i32⟩ : BufTy).Contents (Elt Ideal)) : (⟨S4096x50x1, .i32⟩ : BufTy).Contents (Elt Ideal) :=
  broadcastInDim S4096x50x1 ![0, 1] bcast_S4096x50_S4096x50x1_0_1
    (select (cmpi .slt x1 (broadcastInDim S4096x50 ![] bcast_S_S4096x50 (constantI S_ 32 0#32)))
      (addi x1 (broadcastInDim S4096x50 ![] bcast_S_S4096x50 (constantI S_ 32 2000000#32))) x1)

/-- The gathered neighbour keys and values, as functions of the index and table arguments. -/
def gatheredKeys (x1 : (⟨S4096x50, .i32⟩ : BufTy).Contents (Elt Ideal)) (x2 : (⟨S2000000x64, .f32⟩ : BufTy).Contents (Elt Ideal)) :
    (⟨S4096x50x64, .f32⟩ : BufTy).Contents (Elt Ideal) :=
  Host.gather gather_S2000000x64_S4096x50x1_S4096x50x64_2_0_n_n_0_2_164 x2 (normIndices x1)
def gatheredVals (x1 : (⟨S4096x50, .i32⟩ : BufTy).Contents (Elt Ideal)) (x3 : (⟨S2000000, .f32⟩ : BufTy).Contents (Elt Ideal)) :
    (⟨S4096x50, .f32⟩ : BufTy).Contents (Elt Ideal) :=
  Host.gather gather_S2000000_S4096x50x1_S4096x50_n_0_n_n_0_2_1 x3 (normIndices x1)

/-- The region finds the queries as launched, -/
theorem queries_eq (c : Dev nD) : queries m c = m ((c : Thread nD τ).loc main_arg0) := by
  unfold queries; exact V_main_arg0 m c

/-- the neighbour keys as the first gather left them, -/
theorem nbrKeys_eq (c : Dev nD) :
    nbrKeys m c = gatheredKeys (m ((c : Thread nD τ).loc main_arg1)) (m ((c : Thread nD τ).loc main_arg2)) := by
  unfold nbrKeys gatheredKeys normIndices
  show StableHlo.after hostOps0 (fun b => m (c, b)) (Proc.devRef .tc main_v6) = _
  after_results <;> rfl

/-- and the neighbour values as the second gather left them. -/
theorem nbrVals_eq (c : Dev nD) :
    nbrVals m c = gatheredVals (m ((c : Thread nD τ).loc main_arg1)) (m ((c : Thread nD τ).loc main_arg3)) := by
  unfold nbrVals gatheredVals normIndices
  show StableHlo.after hostOps0 (fun b => m (c, b)) (Proc.devRef .tc main_v13) = _
  after_results <;> rfl

/-- The column viewed as a vector is the batch estimate. -/
theorem column_as_vector (c : Dev nD) (h : S4096x1.ShapeCasts S4096) :
    shapeCast S4096 (column m c) h = Cert.Knn.batchEstimate (queries m c) (nbrKeys m c) (nbrVals m c) := by
  funext i
  obtain ⟨b, rfl⟩ : ∃ b : Fin 4096, i = ix1 b := ⟨i 0, eq_ix1 i⟩
  rw [shapeCast_apply (column m c) h (ix1 b) (ix2 b (0 : Fin 1)) (by
    rw [Shape.rowMajor_val_one, Shape.rowMajor_val_two]
    show b.val * 1 + 0 = b.val
    omega)]
  rfl

/-- What the host's last stage leaves in the result buffer. -/
theorem result_eq (c : Dev nD) :
    Pipeline.afterTail₀ cfgs (dats m) 0 (V0 m) [hostOps1] c main_v15
      = Cert.Knn.batchEstimate (queries m c) (nbrKeys m c) (nbrVals m c) := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.devRef .tc main_v14)
      = column m c :=
    (Pipeline.withArrays_arr spec0 launch0.win.arr_inj c _ _ 3).trans (final m c)
  rw [e]
  exact column_as_vector m c _

/-- THE KERNEL'S RUN: every weakly fair execution terminates with the result buffer at the batch estimate of the
    launched queries and the two gathered arrays, and the arguments as launched. -/
theorem run : θ_run defs (onTc (τ := τ) (main (F := Ideal))) ⟨m, fun _ => 0, ρ⟩ fun r => ∀ c : Dev nD,
      r.2.mem ((c.tc : Thread nD τ).loc main_v15)
        = Cert.Knn.batchEstimate (m ((c.tc : Thread nD τ).loc main_arg0))
            (gatheredKeys (m ((c.tc : Thread nD τ).loc main_arg1)) (m ((c.tc : Thread nD τ).loc main_arg2)))
            (gatheredVals (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v15 (Pipeline.mem_restRefs_of main_v15 (by decide) (by decide))).trans
        ((result_eq m c).trans (by rw [queries_eq, nbrKeys_eq, nbrVals_eq])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Knn.Kernel

end
-- ==== Proof.RefIsEstimate.lean ====
/-
  The reference's result is the batch estimate.

  The reference gathers the neighbours' keys and values by its first stages (the two gathers, which are not opened
  here: they are the same two stages the kernel's program runs before its region) and then computes, stage by stage,
  the differences, their squares summed over the 64 coordinates, the softened inverse, its sum over the 50
  neighbours, its product with the values summed over the 50 neighbours, and the quotient.  Read at one query `b`,
  each stage reads its operands at indices built from `b`, a neighbour `k` and a coordinate `d`; the host's sums
  start from the zero word, which is the real `0`.  So at every `b` the result is that query's row estimate.
-/
import proofs.«104336_j16527034155821_1_alg».proof.Proof.Gen.ReferenceIdeal.Read
import proofs.«104336_j16527034155821_1_alg».proof.Proof.RowEstimate

noncomputable section

namespace Cert.Knn.Ref

open Cert.ReferenceIdeal Cert.ReferenceIdeal.Read Idealize.ShloMosaic Idealize.ShloMosaic.ValueIdx

/-- The reference's last stage, as a function of the query array and the two gathered arrays, is the batch estimate. -/
theorem result_eq (x0 : (⟨S4096x64, .f32⟩ : BufTy).Contents (Elt Ideal)) (x1 : (⟨S4096x50, .i32⟩ : BufTy).Contents (Elt Ideal))
    (x2 : (⟨S2000000x64, .f32⟩ : BufTy).Contents (Elt Ideal)) (x3 : (⟨S2000000, .f32⟩ : BufTy).Contents (Elt Ideal)) :
    val_main_v26 (F := Ideal) x0 x1 x2 x3
      = batchEstimate x0 (val_main_v6 (F := Ideal) x1 x2) (val_main_v13 (F := Ideal) x1 x3) := by
  funext i
  obtain ⟨b, rfl⟩ : ∃ b : Fin 4096, i = ix1 b := ⟨i 0, eq_ix1 i⟩
  -- the indices the stages read, in coordinates
  have e23 : ∀ k : Fin 50, idx_main_v23 (ix1 b) k = ix2 b k := fun k =>
    funext fun a => Fin.ext (by match a with | ⟨0, _⟩ => rfl | ⟨1, _⟩ => rfl)
  have e25 : ∀ k : Fin 50, idx_main_v25 (ix1 b) k = ix2 b k := fun k =>
    funext fun a => Fin.ext (by match a with | ⟨0, _⟩ => rfl | ⟨1, _⟩ => rfl)
  have e18 : ∀ (k : Fin 50) (d : Fin 64), idx_main_v18 (ix2 b k) d = ix3 b k d := fun k d =>
    funext fun a => Fin.ext (by match a with | ⟨0, _⟩ => rfl | ⟨1, _⟩ => rfl | ⟨2, _⟩ => rfl)
  have e15 : ∀ (k : Fin 50) (d : Fin 64), idx_main_v14 (idx_main_v15 (ix3 b k d)) = ix2 b d := fun k d =>
    funext fun a => Fin.ext (by match a with | ⟨0, _⟩ => rfl | ⟨1, _⟩ => rfl)
  rw [val_main_v26_apply, val_main_v25_apply, val_main_v23_apply]
  simp only [e23, e25, val_main_v24_apply, val_main_v22_apply, val_main_v21_apply, val_main_v20_apply, val_main_v19_apply,
    val_main_v18_apply, e18, val_main_v17_apply, val_main_v16_apply, val_main_v15_apply, val_main_v14_apply, e15,
    val_main_cst_apply, val_main_cst_3_apply, val_main_cst_4_apply, val_main_cst_5_apply, val_main_cst_6_apply,
    Ideal.hostDivf_def, Ideal.mulf_def, Ideal.subf_def, Ideal.addf_def, Ideal.ofBits_def, Ideal.ofBits_zero_f32, zero_add]
  rfl

end Cert.Knn.Ref

end
-- ==== Proof.lean ====
/-
  The certificate: an inverse-distance-weighted nearest-neighbour estimate, computed by a kernel over blocks of 512
  queries, against the same estimate computed on the whole batch by array operations.

  Both programs first gather, from a table of keys and a table of values, the 50 neighbours each of the 4096 queries
  names by index — by the same stages, so the gathered arrays are one function of the arguments.  For a query `q`
  with neighbour keys `nk k` and values `nv k` both then compute

      (Σ_k w k · nv k) / (Σ_k w k),    w k = 1 / (Σ_d (q d - nk k d)² + δ)

  with the same constants `1` and `δ`.  The kernel does it 512 queries at a time, summing inside a block and writing
  a column that the host flattens; the reference does it for all queries at once.  On the extended reals a sum does
  not depend on how it is scheduled, and every other step is the same operation on the same operands, so the two
  results agree entry by entry at every input (the finiteness of the inputs is not used).  The idealization rewrote
  nothing in the kernel, so there is nothing to preserve; the frames are the generated ones, the reference's its
  generated run with the result dropped.
-/
import proofs.«104336_j16527034155821_1_alg».proof.Defs
import proofs.«104336_j16527034155821_1_alg».proof.Proof.Gen.Kernel
import proofs.«104336_j16527034155821_1_alg».proof.Proof.Gen.Kernel.Skeleton
import proofs.«104336_j16527034155821_1_alg».proof.Proof.Gen.Kernel.Launch
import proofs.«104336_j16527034155821_1_alg».proof.Proof.Gen.Kernel.Points
import proofs.«104336_j16527034155821_1_alg».proof.Proof.Gen.Kernel.Frame
import proofs.«104336_j16527034155821_1_alg».proof.Proof.Gen.KernelIdeal
import proofs.«104336_j16527034155821_1_alg».proof.Proof.Gen.KernelIdeal.Skeleton
import proofs.«104336_j16527034155821_1_alg».proof.Proof.Gen.KernelIdeal.Launch
import proofs.«104336_j16527034155821_1_alg».proof.Proof.Gen.KernelIdeal.Points
import proofs.«104336_j16527034155821_1_alg».proof.Proof.Gen.KernelIdeal.Frame
import proofs.«104336_j16527034155821_1_alg».proof.Proof.Gen.ReferenceIdeal
import proofs.«104336_j16527034155821_1_alg».proof.Proof.Gen.Pre_finite_inputs
import proofs.«104336_j16527034155821_1_alg».proof.Proof.Gen.ReferenceIdeal.Run
import proofs.«104336_j16527034155821_1_alg».proof.Proof.Gen.ReferenceIdeal.Read
import proofs.«104336_j16527034155821_1_alg».proof.Proof.KernelRun
import proofs.«104336_j16527034155821_1_alg».proof.Proof.RefIsEstimate
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs' index normalisation and gathers are the same stages: the reference's gathered arrays are
    the kernel program's, as functions of the index and table arguments. -/
theorem gatheredKeys_eq (x1 : (⟨Cert.KernelIdeal.S4096x50, .i32⟩ : BufTy).Contents (Elt Ideal))
    (x2 : (⟨Cert.KernelIdeal.S2000000x64, .f32⟩ : BufTy).Contents (Elt Ideal)) :
    Cert.ReferenceIdeal.Read.val_main_v6 (F := Ideal) x1 x2 = Cert.Knn.Kernel.gatheredKeys x1 x2 := rfl
theorem gatheredVals_eq (x1 : (⟨Cert.KernelIdeal.S4096x50, .i32⟩ : BufTy).Contents (Elt Ideal))
    (x3 : (⟨Cert.KernelIdeal.S2000000, .f32⟩ : BufTy).Contents (Elt Ideal)) :
    Cert.ReferenceIdeal.Read.val_main_v13 (F := Ideal) x1 x3 = Cert.Knn.Kernel.gatheredVals x1 x3 := rfl

/-- Run from memories that agree on the arguments, both programs end with the batch estimate of the queries and the
    gathered neighbours in their result buffers. -/
theorem algebraic : Cert.algebraic_KernelIdeal_ReferenceIdeal := by
  intro m ρ m' ρ' _ hagree
  refine ⟨_, Cert.Knn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.Knn.Ref.result_eq, gatheredKeys_eq, gatheredVals_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
